-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg3 : IVec S1600000 32) (main_v32 : IVec S_ 1) (main_c_12 : IVec S_ 32) : IVec S_ 1 :=
  let main_v33 : IVec S1600000 32 := broadcastInDim S1600000 ![] bcast_S_S1600000 main_c_12
  let main_v34 : IVec S1600000 1 := cmpi .slt main_arg3 main_v33
  let main_c_13 : IVec S_ 1 := constantI S_ 1 1#1
  let main_v35 : IVec S_ 1 := (fun x v => Host.reduce IntOp.andi x v reducesTo_S1600000_S_d0 h_S_) main_v34 main_c_13
  let main_v36 : IVec S_ 1 := andi main_v32 main_v35
  main_v36

def fn_part1 {F : FTy → Type} [FloatOps F] (main_arg3 : IVec S1600000 32) (main_arg6 : FVec F S192x128 .f32) (main_arg7 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S192x128 .f32 := Host.absf main_arg6
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S1600000 32 := broadcastInDim S1600000 ![] bcast_S_S1600000 main_c_10
  let main_v30 : IVec S1600000 1 := cmpi .sge main_arg3 main_v29
  let main_c_11 : IVec S_ 1 := constantI S_ 1 1#1
  let main_v31 : IVec S_ 1 := (fun x v => Host.reduce IntOp.andi x v reducesTo_S1600000_S_d0 h_S_) main_v30 main_c_11
  let main_v32 : IVec S_ 1 := andi main_v28 main_v31
  let main_c_12 : IVec S_ 32 := constantI S_ 32 100000#32
  fn_part2 (F := F) main_arg3 main_v32 main_c_12

def fn {F : FTy → Type} [FloatOps F] (main_arg0 : FVec F S100000x128 .f32) (main_arg1 : FVec F S100000x128 .f32) (main_arg2 : IVec S1600000 32) (main_arg3 : IVec S1600000 32) (main_arg4 : FVec F S128x64 .f32) (main_arg5 : FVec F S64 .f32) (main_arg6 : FVec F S192x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg3 main_arg6 main_arg7 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1x64 : Shape := ⟨2, ![1, 64]⟩
abbrev S1600000x64 : Shape := ⟨2, ![1600000, 64]⟩
abbrev S128x128 : Shape := ⟨2, ![128, 128]⟩
abbrev S64x128 : Shape := ⟨2, ![64, 128]⟩
abbrev S1x128 : Shape := ⟨2, ![1, 128]⟩

abbrev nBuf : Space → Nat
  | .hbm => 43
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S192x128, .f32⟩
  | .hbm, ⟨7, _⟩ => ⟨S128, .f32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .bf16⟩
  | .hbm, ⟨35, _⟩ => ⟨S1600000x64, .f32⟩
  | .hbm, ⟨36, _⟩ => ⟨S_, .f32⟩
  | .hbm, ⟨37, _⟩ => ⟨S100000x64, .f32⟩
  | .hbm, ⟨38, _⟩ => ⟨S1600000x1, .i32⟩
  | .hbm, ⟨39, _⟩ => ⟨S100000x64, .f32⟩
  | .hbm, ⟨40, _⟩ => ⟨S128x128, .f32⟩
  | .hbm, ⟨41, _⟩ => ⟨S64x128, .f32⟩
  | .hbm, ⟨42, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S64, .f32⟩
  | .local _ .vmem, ⟨4, _⟩ => ⟨S4000x1, .f32⟩
  | .local _ .vmem, ⟨5, _⟩ => ⟨S4000x1, .f32⟩
  | .local _ .vmem, ⟨6, _⟩ => ⟨S4000x64, .bf16⟩
  | .local _ .vmem, ⟨7, _⟩ => ⟨S4000x64, .bf16⟩
  | .local _ .vmem, ⟨8, _⟩ => ⟨S4000x128, .f32⟩
  | .local _ .vmem, ⟨9, _⟩ => ⟨S4000x128, .f32⟩
  | .local _ .vmem, ⟨10, _⟩ => ⟨S4000x64, .f32⟩
  | .local _ .vmem, ⟨11, _⟩ => ⟨S4000x64, .f32⟩
  | .local _ .vmem, ⟨12, _⟩ => ⟨S128x128, .f32⟩
  | .local _ .vmem, ⟨13, _⟩ => ⟨S64x128, .f32⟩
  | .local _ .vmem, ⟨14, _⟩ => ⟨S128, .f32⟩
  | .local _ .vmem, ⟨15, _⟩ => ⟨S4000x128, .f32⟩
  | .local _ .vmem, ⟨16, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  slices_S192x128_S128x128_0_0 : S192x128.Slices ![0, 0] S128x128
  slices_S192x128_S64x128_128_0 : S192x128.Slices ![128, 0] S64x128
  shapeCasts_S4000x64_S4000x64 : S4000x64.ShapeCasts S4000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x128_S128x64_S4000x64_1_0_0_1_n_n_wf : DotDims.WF S4000x128 S128x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x128_S128x128_S4000x128_1_0_0_1_n_n_wf : DotDims.WF S4000x128 S128x128 S4000x128 [1] [0] [0] [1] [] []
  dot_S4000x64_S64x128_S4000x128_1_0_0_1_n_n_wf : DotDims.WF S4000x64 S64x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .bf16 = 32 ∨ (Rect.block (s := S100000x64) S4000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S4000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S192x128 : Shape := ⟨2, ![192, 128]⟩
abbrev S128 : Shape := ⟨1, ![128]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x192 : Shape := ⟨2, ![100000, 192]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S192x128, .f32⟩
  | .hbm, ⟨7, _⟩ => ⟨S128, .f32⟩
  | .hbm, ⟨8, _⟩ => ⟨S100000x64, .f32⟩
  | .hbm, ⟨9, _⟩ => ⟨S1x64, .f32⟩
  | .hbm, ⟨10, _⟩ => ⟨S100000x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S100000x64, .f32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000x1, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x192, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  concatenates_S100000x128_S100000x64_S100000x192_d1 : Shape.Concatenates [S100000x128, S100000x64] S100000x192 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  gather_S100000_S1600000x1_S1600000_n_0_n_n_0_1_1_wf : GatherDims.WF S100000 S1600000x1 S1600000 [] [0] [] [0] [] 1 ![1]
  scatter_S100000x64_S1600000x1_S1600000x64_1_0_0_1_wf : ScatterDims.WF S100000x64 S1600000x1 S1600000x64 [1] [0] [0] 1
  dot_S100000x192_S192x128_S100000x128_1_0_0_1_n_n_wf : DotDims.WF S100000x192 S192x128 S100000x128 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf

class Facts : Prop extends Facts₀ where

variable [Facts]
-- ==== Proof.KernelRun.lean ====
/-
  The idealized kernel's run with its result named.

  The program is two pipelined regions among stretches of host operations. Its run is a chain of segments, and the
  contents of every buffer at each boundary of the chain are a fold from the launch memory: after the three opening
  stretches, after the first region (its arrays at what the pipeline's write-backs leave), after the middle stretch,
  after the second region. Every weakly fair execution terminates without a fault in a state whose unscoped buffers
  hold the last boundary's contents; read at the result buffer this names the result, and read at the argument
  buffers it gives the arguments back unchanged.
-/
import proofs.«133904_j128849019138_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument buffer as launched. -/
theorem run : θ_run defs (onTc (τ := τ) (main (F := F))) ⟨m, fun _ => 0, ρ⟩ (fun r => ∀ c : Dev nD,
      r.2.mem ((c.tc : Thread nD τ).loc main_v24) = W6 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v24 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.Bodies.lean ====
/-
  The two kernel bodies read at an index, at the ideal values.

  The first body takes a block of `T = 4000` rows of the node features, the whole pooling matrix, its bias and the
  block's column of per-node scales, and stores, at row `p` and lane `q`,
      max (Σ_k x(p,k)·W(k,q) + b(q), 0) · s(p),
  the changes of float format being the identity on extended reals.
  The second body takes a block of rows of the destination features and of the aggregated messages, the two row
  parts of the output matrix and the output bias, and stores
      (Σ_k y(p,k)·W₁(k,q) + Σ_k a(p,k)·W₂(k,q)) + b(q).
-/
import proofs.«133904_j128849019138_2_alg».proof.Proof.Gen.KernelIdeal.Skeleton
import proofs.«133904_j128849019138_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx Cert.LibRowOps

/-- A plain product into the zero accumulator, in the spelling the printed bodies use, at `(r, j)`. -/
theorem product_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    matmul d prec lhs rhs (constant ⟨2, ![M, N]⟩ .f32 0x00000000#32) (ix2 r j)
      = ∑ k : Fin K, lhs (ix2 r k) * rhs (ix2 k j) :=
  matmul_plain_apply d hd prec lhs rhs r j

/-- The pooling body at row `p`, lane `q`: the rectified affine image of row `p`, scaled by the row's scale. -/
theorem pool_apply (x0 : Vec Ideal S4000x128 .f32) (x1 : Vec Ideal S128x64 .f32) (x2 : Vec Ideal S64 .f32)
    (x3 : Vec Ideal S4000x1 .f32) (p : Fin 4000) (q : Fin 64) :
    k0_pay1 (F := Ideal) x0 x1 x2 x3 (ix2 p q)
      = max ((∑ k : Fin 128, x0 (ix2 p k) * x1 (ix2 k q)) + x2 (ix1 q)) (Ideal.ofBits .f32 0x00000000#32) * x3 (ix2 p 0) := by
  unfold k0_pay1
  rw [truncf_apply, mulf_apply, maximumf_apply, addf_apply, broadcast_apply,
    product_apply dot_S4000x128_S128x64_S4000x64_1_0_0_1_n_n rfl, biasRow_apply, broadcastTo_a1_ab_apply, shapeCast_self]
  rfl

/-- The output body at row `p`, lane `q`: the two products' sum plus the bias. -/
theorem neigh_apply (x0 : Vec Ideal S4000x128 .f32) (x1 : Vec Ideal S4000x64 .f32) (x2 : Vec Ideal S128x128 .f32)
    (x3 : Vec Ideal S64x128 .f32) (x4 : Vec Ideal S128 .f32) (p : Fin 4000) (q : Fin 128) :
    k1_pay1 (F := Ideal) x0 x1 x2 x3 x4 (ix2 p q)
      = ((∑ k : Fin 128, x0 (ix2 p k) * x2 (ix2 k q)) + (∑ k : Fin 64, x1 (ix2 p k) * x3 (ix2 k q))) + x4 (ix1 q) := by
  unfold k1_pay1
  rw [addf_apply, addf_apply, product_apply dot_S4000x128_S128x128_S4000x128_1_0_0_1_n_n rfl,
    product_apply dot_S4000x64_S64x128_S4000x128_1_0_0_1_n_n rfl, biasRow_apply]
  simp only [shapeCast_self]
  rfl

end Cert.KernelIdeal.Bodies

end
-- ==== Proof.Pool.lean ====
/-
  The first region's result array as one function of the arrays the region finds.

  The region runs the pooling body at twenty-five points; point `t` reads rows `[4000 t, 4000 t + 4000)` of the node
  features and of the column of scales, the whole pooling matrix and bias, and writes back the same rows of the result.
  What a point writes back is therefore the block of ONE whole-array function — at row `r`, lane `f`,
  `max (Σ_k h(r,k)·W(k,f) + b(f), 0) · s(r)` — and the blocks cover the array, so the array ends holding that function.
-/
import proofs.«133904_j128849019138_2_alg».proof.Proof.Gen.KernelIdeal.Frame
import proofs.«133904_j128849019138_2_alg».proof.Proof.Bodies

set_option maxRecDepth 16384

noncomputable section

namespace Cert.KernelIdeal.Pool

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `r`, lane `f` of the scaled pooled features: `max (Σ_k h(r,k)·W(k,f) + b(f), 0) · s(r)`. -/
def scaledPool (h : S100000x128.Idx → EReal) (W : S128x64.Idx → EReal) (b : S64.Idx → EReal) (s : S100000x1.Idx → EReal) :
    S100000x64.Idx → EReal :=
  fun i => max ((∑ k : Fin 128, h (ix2 (i 0) k) * W (ix2 k (i 1))) + b (ix1 (i 1))) (Ideal.ofBits .f32 0x00000000#32) * s (ix2 (i 0) 0)

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row-blocked windows move with the output's row block, the others stay. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = win0_4.index t (0 : Fin 2) ∧ win0_3.index t (1 : Fin 2) = 0
    ∧ win0_4.index t (1 : Fin 2) = 0 ∧ win0_4.index t (0 : Fin 2) = t.val :=
  (by decide +kernel : ∀ t : Fin grid0.N, _)

/-- What point `t` writes back is block `t` of the scaled pooled features of the arrays the region finds. -/
theorem flushed_eq (c : Dev nD) (t : Fin cfg0.N) :
    (dat0 V c).flushed 4 t = ((cfg0.win 4).blk t).view.read (Elt Ideal)
      (scaledPool (V c main_arg0) (V c main_arg4) (V c main_arg5) (V c main_v9)) := by
  show (cfg0.win 4).cut (grid0.coords t) ((dat0 V c).after 4 t) = _
  rw [after0_4]
  unfold out0_4
  rw [View.canon_unit_zero hz2]
  simp only [View.ld_unit_zero (S := S4000x128) hz2, View.ld_unit_zero (S := S128x64) hz2, View.ld_unit_zero (S := S64) hz1,
    View.ld_unit_zero (S := S4000x1) hz2]
  funext j
  obtain ⟨p, q, rfl⟩ : ∃ (p : Fin 4000) (q : Fin 64), j = ix2 p q := ⟨j 0, j 1, eq_ix2 j⟩
  refine (pool_apply (iblk0 V c 0 t) (iblk0 V c 1 t) (iblk0 V c 2 t) (iblk0 V c 3 t) p q).trans ?_
  obtain ⟨f0, f1, f2, f3, f4, f5, f6, f7, f8⟩ := idx_facts t
  have e0 : ∀ k : Fin 128, ((cfg0.win 0).blk t).view.emb (ix2 p k) = ix2 ((((cfg0.win 4).blk t).view.emb (ix2 p q)) 0) k := by
    intro k; funext a; apply Fin.ext
    match a with
    | ⟨0, _⟩ => show win0_0.index t (0 : Fin 2) * 4000 + 1 * p.val = win0_4.index t (0 : Fin 2) * 4000 + 1 * p.val; omega
    | ⟨1, _⟩ => show win0_0.index t (1 : Fin 2) * 128 + 1 * k.val = k.val; omega
  have e1 : ∀ k : Fin 128, ((cfg0.win 1).blk t).view.emb (ix2 k q) = ix2 k ((((cfg0.win 4).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 64 + 1 * q.val = win0_4.index t (1 : Fin 2) * 64 + 1 * q.val; omega
  have e2 : ((cfg0.win 2).blk t).view.emb (ix1 q) = ix1 ((((cfg0.win 4).blk t).view.emb (ix2 p q)) 1) := by
    funext a; apply Fin.ext
    match a with
    | ⟨0, _⟩ => show win0_2.index t (0 : Fin 1) * 64 + 1 * q.val = win0_4.index t (1 : Fin 2) * 64 + 1 * q.val; omega
  have e3 : ((cfg0.win 3).blk t).view.emb (ix2 p (0 : Fin 1)) = ix2 ((((cfg0.win 4).blk t).view.emb (ix2 p q)) 0) (0 : Fin 1) := by
    funext a; apply Fin.ext
    match a with
    | ⟨0, _⟩ => show win0_3.index t (0 : Fin 2) * 4000 + 1 * p.val = win0_4.index t (0 : Fin 2) * 4000 + 1 * p.val; omega
    | ⟨1, _⟩ => show win0_3.index t (1 : Fin 2) * 1 + 1 * 0 = 0; omega
  have r0 : ∀ k : Fin 128, iblk0 V c 0 t (ix2 p k)
      = (V c main_arg0 : S100000x128.Idx → EReal) (ix2 ((((cfg0.win 4).blk t).view.emb (ix2 p q)) 0) k) :=
    fun k => congrArg (V c main_arg0 : S100000x128.Idx → EReal) (e0 k)
  have r1 : ∀ k : Fin 128, iblk0 V c 1 t (ix2 k q)
      = (V c main_arg4 : S128x64.Idx → EReal) (ix2 k ((((cfg0.win 4).blk t).view.emb (ix2 p q)) 1)) :=
    fun k => congrArg (V c main_arg4 : S128x64.Idx → EReal) (e1 k)
  have r2 : iblk0 V c 2 t (ix1 q) = (V c main_arg5 : S64.Idx → EReal) (ix1 ((((cfg0.win 4).blk t).view.emb (ix2 p q)) 1)) :=
    congrArg (V c main_arg5 : S64.Idx → EReal) e2
  have r3 : iblk0 V c 3 t (ix2 p (0 : Fin 1))
      = (V c main_v9 : S100000x1.Idx → EReal) (ix2 ((((cfg0.win 4).blk t).view.emb (ix2 p q)) 0) (0 : Fin 1)) :=
    congrArg (V c main_v9 : S100000x1.Idx → EReal) e3
  simp only [r0, r1, r2, r3]
  rfl

/-- An index of the array is in point `t`'s block iff each coordinate is in the block's range on its axis. -/
theorem mem_blk (t : Fin cfg0.N) (i : S100000x64.Idx) :
    i ∈ ((cfg0.win 4).blk t).view.set ↔ ∀ a : Fin 2, win0_4.index t a * S4000x64.size a ≤ (i a).val ∧ (i a).val < win0_4.index t a * S4000x64.size a + S4000x64.size a := by
  show i ∈ ((View.whole main_v10).slice (win0_4.rect t)).set ↔ _
  rw [View.set_slice_whole, Rect.mem_set_unit]
  exact Iff.rfl

/-- Row `r` lies in the block of the point `r / 4000`: the twenty-five blocks of 4000 rows cover the array. -/
theorem cover (i : S100000x64.Idx) :
    ∃ t : Fin cfg0.N, (cfg0.win 4).flush t = true ∧ i ∈ ((cfg0.win 4).blk t).view.set := by
  have h0 : (i 0).val < 100000 := (i 0).isLt
  have h1 : (i 1).val < 64 := (i 1).isLt
  have hN : cfg0.N = 25 := N_0
  have hlt : (i 0).val / 4000 < cfg0.N := by omega
  obtain ⟨-, -, -, -, -, -, -, f7, f8⟩ := idx_facts ⟨(i 0).val / 4000, hlt⟩
  have f8' : win0_4.index ⟨(i 0).val / 4000, hlt⟩ (0 : Fin 2) = (i 0).val / 4000 := f8
  refine ⟨⟨(i 0).val / 4000, hlt⟩, flush0_4 _, ?_⟩
  rw [mem_blk]
  intro a
  match a with
  | ⟨0, _⟩ =>
    show win0_4.index ⟨(i 0).val / 4000, hlt⟩ (0 : Fin 2) * 4000 ≤ (i 0).val ∧ (i 0).val < win0_4.index ⟨(i 0).val / 4000, hlt⟩ (0 : Fin 2) * 4000 + 4000
    omega
  | ⟨1, _⟩ =>
    show win0_4.index ⟨(i 0).val / 4000, hlt⟩ (1 : Fin 2) * 64 ≤ (i 1).val ∧ (i 1).val < win0_4.index ⟨(i 0).val / 4000, hlt⟩ (1 : Fin 2) * 64 + 64
    omega

/-- The first region's result array, whatever the region finds: the scaled pooled features of the arrays it reads. -/
theorem final (c : Dev nD) :
    (dat0 V c).arrAt 4 cfg0.N = scaledPool (V c main_arg0) (V c main_arg4) (V c main_arg5) (V c main_v9) :=
  (dat0 V c).arrAt_eq_of_cover 4 _ (fun t _ => flushed_eq V c t) cover

end Cert.KernelIdeal.Pool

end
-- ==== Proof.Neigh.lean ====
/-
  The second region's result array as one function of the arrays the region finds.

  The region runs the output body at twenty-five points; point `t` reads rows `[4000 t, 4000 t + 4000)` of the
  destination features and of the aggregated messages, the two row parts of the output matrix and the output bias
  whole, and writes back the same rows of the result. What a point writes back is the block of ONE whole-array
  function — at row `r`, lane `j`, `(Σ_k y(r,k)·W₁(k,j) + Σ_k a(r,k)·W₂(k,j)) + b(j)` — and the blocks cover the
  array, so the array ends holding that function.
-/
import proofs.«133904_j128849019138_2_alg».proof.Proof.Gen.KernelIdeal.Frame
import proofs.«133904_j128849019138_2_alg».proof.Proof.Bodies

set_option maxRecDepth 16384

noncomputable section

namespace Cert.KernelIdeal.Neigh

open Cert.KernelIdeal Cert.KernelIdeal.Gen Cert.KernelIdeal.Bodies
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Row `r`, lane `j` of the layer's output: `(Σ_k y(r,k)·W₁(k,j) + Σ_k a(r,k)·W₂(k,j)) + b(j)`. -/
def affineOut (y : S100000x128.Idx → EReal) (a : S100000x64.Idx → EReal) (W1 : S128x128.Idx → EReal)
    (W2 : S64x128.Idx → EReal) (b : S128.Idx → EReal) : S100000x128.Idx → EReal :=
  fun i => ((∑ k : Fin 128, y (ix2 (i 0) k) * W1 (ix2 k (i 1))) + (∑ k : Fin 64, a (ix2 (i 0) k) * W2 (ix2 k (i 1))))
    + b (ix1 (i 1))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the row-blocked windows move with the output's row block, the others stay. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) = t.val :=
  (by decide +kernel : ∀ t : Fin grid1.N, _)

/-- What point `t` writes back is block `t` of the layer's output of the arrays the region finds. -/
theorem flushed_eq (c : Dev nD) (t : Fin cfg1.N) :
    (dat1 V c).flushed 5 t = ((cfg1.win 5).blk t).view.read (Elt Ideal)
      (affineOut (V c main_arg1) (V c main_v21) (V c main_v22) (V c main_v23) (V c main_arg7)) := by
  show (cfg1.win 5).cut (grid1.coords t) ((dat1 V c).after 5 t) = _
  rw [after1_5]
  unfold out1_5
  rw [View.canon_unit_zero hz2]
  simp only [View.ld_unit_zero (S := S4000x128) hz2, View.ld_unit_zero (S := S4000x64) hz2, View.ld_unit_zero (S := S128x128) hz2,
    View.ld_unit_zero (S := S64x128) hz2, View.ld_unit_zero (S := S128) hz1]
  funext j
  obtain ⟨p, q, rfl⟩ : ∃ (p : Fin 4000) (q : Fin 128), j = ix2 p q := ⟨j 0, j 1, eq_ix2 j⟩
  refine (neigh_apply (iblk1 V c 0 t) (iblk1 V c 1 t) (iblk1 V c 2 t) (iblk1 V c 3 t) (iblk1 V c 4 t) p q).trans ?_
  obtain ⟨f0, f1, f2, f3, f4, f5, f6, f7, f8, f9, f10⟩ := idx_facts t
  have e0 : ∀ k : Fin 128, ((cfg1.win 0).blk t).view.emb (ix2 p k) = ix2 ((((cfg1.win 5).blk t).view.emb (ix2 p q)) 0) k := by
    intro k; funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  have e1 : ∀ k : Fin 64, ((cfg1.win 1).blk t).view.emb (ix2 p k) = ix2 ((((cfg1.win 5).blk t).view.emb (ix2 p q)) 0) k := by
    intro k; funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 64 + 1 * k.val = k.val; omega
  have e2 : ∀ k : Fin 128, ((cfg1.win 2).blk t).view.emb (ix2 k q) = ix2 k ((((cfg1.win 5).blk t).view.emb (ix2 p q)) 1) := by
    intro k; funext a; apply Fin.ext
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  have e3 : ∀ k : Fin 64, ((cfg1.win 3).blk t).view.emb (ix2 k q) = ix2 k ((((cfg1.win 5).blk t).view.emb (ix2 p q)) 1) := by
    intro k; funext a; apply Fin.ext
    match a with
    | ⟨0, _⟩ => show win1_3.index t (0 : Fin 2) * 64 + 1 * k.val = k.val; omega
    | ⟨1, _⟩ => show win1_3.index t (1 : Fin 2) * 128 + 1 * q.val = win1_5.index t (1 : Fin 2) * 128 + 1 * q.val; omega
  have e4 : ((cfg1.win 4).blk t).view.emb (ix1 q) = ix1 ((((cfg1.win 5).blk t).view.emb (ix2 p q)) 1) := by
    funext a; apply Fin.ext
    match a with
    | ⟨0, _⟩ => show win1_4.index t (0 : Fin 1) * 128 + 1 * q.val = win1_5.index t (1 : Fin 2) * 128 + 1 * q.val; omega
  have r0 : ∀ k : Fin 128, iblk1 V c 0 t (ix2 p k)
      = (V c main_arg1 : S100000x128.Idx → EReal) (ix2 ((((cfg1.win 5).blk t).view.emb (ix2 p q)) 0) k) :=
    fun k => congrArg (V c main_arg1 : S100000x128.Idx → EReal) (e0 k)
  have r1 : ∀ k : Fin 64, iblk1 V c 1 t (ix2 p k)
      = (V c main_v21 : S100000x64.Idx → EReal) (ix2 ((((cfg1.win 5).blk t).view.emb (ix2 p q)) 0) k) :=
    fun k => congrArg (V c main_v21 : S100000x64.Idx → EReal) (e1 k)
  have r2 : ∀ k : Fin 128, iblk1 V c 2 t (ix2 k q)
      = (V c main_v22 : S128x128.Idx → EReal) (ix2 k ((((cfg1.win 5).blk t).view.emb (ix2 p q)) 1)) :=
    fun k => congrArg (V c main_v22 : S128x128.Idx → EReal) (e2 k)
  have r3 : ∀ k : Fin 64, iblk1 V c 3 t (ix2 k q)
      = (V c main_v23 : S64x128.Idx → EReal) (ix2 k ((((cfg1.win 5).blk t).view.emb (ix2 p q)) 1)) :=
    fun k => congrArg (V c main_v23 : S64x128.Idx → EReal) (e3 k)
  have r4 : iblk1 V c 4 t (ix1 q) = (V c main_arg7 : S128.Idx → EReal) (ix1 ((((cfg1.win 5).blk t).view.emb (ix2 p q)) 1)) :=
    congrArg (V c main_arg7 : S128.Idx → EReal) e4
  simp only [r0, r1, r2, r3, r4]
  rfl

/-- An index of the array is in point `t`'s block iff each coordinate is in the block's range on its axis. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v24).slice (win1_5.rect t)).set ↔ _
  rw [View.set_slice_whole, Rect.mem_set_unit]
  exact Iff.rfl

/-- Row `r` lies in the block of the point `r / 4000`: the twenty-five blocks of 4000 rows cover the array. -/
theorem cover (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 25 := N_1
  have hlt : (i 0).val / 4000 < cfg1.N := by omega
  obtain ⟨-, -, -, -, -, -, -, -, -, f9, f10⟩ := idx_facts ⟨(i 0).val / 4000, hlt⟩
  have f10' : win1_5.index ⟨(i 0).val / 4000, hlt⟩ (0 : Fin 2) = (i 0).val / 4000 := f10
  refine ⟨⟨(i 0).val / 4000, hlt⟩, flush1_5 _, ?_⟩
  rw [mem_blk]
  intro a
  match a with
  | ⟨0, _⟩ =>
    show win1_5.index ⟨(i 0).val / 4000, hlt⟩ (0 : Fin 2) * 4000 ≤ (i 0).val ∧ (i 0).val < win1_5.index ⟨(i 0).val / 4000, hlt⟩ (0 : Fin 2) * 4000 + 4000
    omega
  | ⟨1, _⟩ =>
    show win1_5.index ⟨(i 0).val / 4000, hlt⟩ (1 : Fin 2) * 128 ≤ (i 1).val ∧ (i 1).val < win1_5.index ⟨(i 0).val / 4000, hlt⟩ (1 : Fin 2) * 128 + 128
    omega

/-- The second region's result array, whatever the region finds: the layer's output of the arrays it reads. -/
theorem final (c : Dev nD) :
    (dat1 V c).arrAt 5 cfg1.N = affineOut (V c main_arg1) (V c main_v21) (V c main_v22) (V c main_v23) (V c main_arg7) :=
  (dat1 V c).arrAt_eq_of_cover 5 _ (fun t _ => flushed_eq V c t) cover

end Cert.KernelIdeal.Neigh

end
-- ==== Proof.KernelValue.lean ====
/-
  The idealized kernel's result as one function of its arguments.

  Read backwards from the last boundary of the run: the result buffer holds what the second region leaves, the
  layer's output of the arrays that region finds; of those, the aggregated messages are the middle stretch's
  scatter-sum, along the destination words, of the rows the first region's result holds at the (wrapped, clamped)
  source words; the first region's result is the scaled pooled features of the arrays it finds; and the column of
  scales it finds is the opening stretches' guarded reciprocal of the out-degree, the scatter-sum of ones along the
  source words. No stretch and no region writes an argument, so every argument is read at its launch contents.
-/
import proofs.«133904_j128849019138_2_alg».proof.Proof.Gen.KernelIdeal.Frame
import proofs.«133904_j128849019138_2_alg».proof.Proof.Pool
import proofs.«133904_j128849019138_2_alg».proof.Proof.Neigh
import Idealize.ShloMosaic.Lib.StableHlo.Run
import Idealize.ShloMosaic.PureOps.Ideal

set_option maxRecDepth 16384

noncomputable section

namespace Cert.KernelIdeal.Closed

open Cert.KernelIdeal
open Idealize.ShloMosaic Idealize.ShloMosaic.TcCoe Idealize.ShloMosaic.StableHlo Idealize.SL.Sem

/-! ## The closed form -/

/-- The out-degree of every node: ones summed along the source words (a word out of range lands nowhere). -/
def deg (src : IVec S1600000 32) : FVec Ideal S100000 .f32 :=
  Host.scatterAdd (F := Ideal) scatter_S100000_S1600000x1_S1600000_n_0_0_1
    (broadcastInDim S100000 ![] Gen.bcast_S_S100000 (constant (F := Ideal) S_ .f32 0x00000000#32))
    (broadcastInDim S1600000x1 ![0] Gen.bcast_S1600000_S1600000x1_0 src)
    (broadcastInDim S1600000 ![] Gen.bcast_S_S1600000 (constant (F := Ideal) S_ .f32 0x3F800000#32))

/-- The scale of every node: the reciprocal of its out-degree where that is positive, zero elsewhere. -/
def recip (src : IVec S1600000 32) : FVec Ideal S100000 .f32 :=
  select (cmpf .ogt (deg src) (broadcastInDim S100000 ![] Gen.bcast_S_S100000 (constant (F := Ideal) S_ .f32 0x00000000#32)))
    (Host.divf (F := Ideal) (broadcastInDim S100000 ![] Gen.bcast_S_S100000 (constant (F := Ideal) S_ .f32 0x3F800000#32)) (deg src))
    (broadcastInDim S100000 ![] Gen.bcast_S_S100000 (constant (F := Ideal) S_ .f32 0x00000000#32))

/-- The same as a column. -/
def invDeg (src : IVec S1600000 32) : FVec Ideal S100000x1 .f32 :=
  shapeCast S100000x1 (recip src) Gen.shapeCasts_S100000_S100000x1

/-- The start indices of the row gather: each source word, a negative one moved up by the node count. -/
def gatherIdx (src : IVec S1600000 32) : IVec S1600000x1 32 :=
  broadcastInDim S1600000x1 ![0] Gen.bcast_S1600000_S1600000x1_0
    (select (cmpi .slt src (broadcastInDim S1600000 ![] Gen.bcast_S_S1600000 (constantI S_ 32 0#32)))
      (addi src (broadcastInDim S1600000 ![] Gen.bcast_S_S1600000 (constantI S_ 32 100000#32))) src)

/-- The per-edge messages: the scaled pooled row of the edge's source. -/
def msgs (h : FVec Ideal S100000x128 .f32) (src : IVec S1600000 32) (W : FVec Ideal S128x64 .f32) (b : FVec Ideal S64 .f32) :
    FVec Ideal S1600000x64 .f32 :=
  extf .f32 (Host.gather gather_S100000x64_S1600000x1_S1600000x64_1_0_n_n_0_1_164
    (Pool.scaledPool h W b (invDeg src) : FVec Ideal S100000x64 .bf16) (gatherIdx src)) Gen.bitsLt_bf16_f32

/-- The aggregated messages: the per-edge messages summed along the destination words. -/
def agg (h : FVec Ideal S100000x128 .f32) (dst src : IVec S1600000 32) (W : FVec Ideal S128x64 .f32) (b : FVec Ideal S64 .f32) :
    FVec Ideal S100000x64 .f32 :=
  Host.scatterAdd (F := Ideal) scatter_S100000x64_S1600000x1_S1600000x64_1_0_0_1
    (broadcastInDim S100000x64 ![] Gen.bcast_S_S100000x64 (constant (F := Ideal) S_ .f32 0x00000000#32))
    (broadcastInDim S1600000x1 ![0] Gen.bcast_S1600000_S1600000x1_0 dst)
    (msgs h src W b)

/-- The kernel's result. -/
def out (h y : FVec Ideal S100000x128 .f32) (dst src : IVec S1600000 32) (W : FVec Ideal S128x64 .f32) (b : FVec Ideal S64 .f32)
    (Wn : FVec Ideal S192x128 .f32) (bn : FVec Ideal S128 .f32) : FVec Ideal S100000x128 .f32 :=
  Neigh.affineOut y (agg h dst src W b)
    (extractStridedSlice S128x128 ![0, 0] Wn Gen.slices_S192x128_S128x128_0_0)
    (extractStridedSlice S64x128 ![128, 0] Wn Gen.slices_S192x128_S64x128_128_0) bn

/-! ## The boundaries of the run, read -/

variable (m : (ℓ : Loc nD τ sig) → Buf (Elt Ideal) ℓ) (ρ : Dev nD → PrngReg) (c : Dev nD)

/-- The opening stretches write no argument. -/
theorem W3_arg0 : Gen.W3 m ρ c (Proc.devRef .tc main_arg0) = m ((c : Thread nD τ).loc main_arg0) := by
  show StableHlo.after Gen.hostOps0_2 (StableHlo.after Gen.hostOps0_1 (StableHlo.after Gen.hostOps0 (Gen.W0 m ρ c))) (Proc.devRef .tc main_arg0) = _
  after_results
theorem W3_arg1 : Gen.W3 m ρ c (Proc.devRef .tc main_arg1) = m ((c : Thread nD τ).loc main_arg1) := by
  show StableHlo.after Gen.hostOps0_2 (StableHlo.after Gen.hostOps0_1 (StableHlo.after Gen.hostOps0 (Gen.W0 m ρ c))) (Proc.devRef .tc main_arg1) = _
  after_results
theorem W3_arg2 : Gen.W3 m ρ c (Proc.devRef .tc main_arg2) = m ((c : Thread nD τ).loc main_arg2) := by
  show StableHlo.after Gen.hostOps0_2 (StableHlo.after Gen.hostOps0_1 (StableHlo.after Gen.hostOps0 (Gen.W0 m ρ c))) (Proc.devRef .tc main_arg2) = _
  after_results
theorem W3_arg3 : Gen.W3 m ρ c (Proc.devRef .tc main_arg3) = m ((c : Thread nD τ).loc main_arg3) := by
  show StableHlo.after Gen.hostOps0_2 (StableHlo.after Gen.hostOps0_1 (StableHlo.after Gen.hostOps0 (Gen.W0 m ρ c))) (Proc.devRef .tc main_arg3) = _
  after_results
theorem W3_arg4 : Gen.W3 m ρ c (Proc.devRef .tc main_arg4) = m ((c : Thread nD τ).loc main_arg4) := by
  show StableHlo.after Gen.hostOps0_2 (StableHlo.after Gen.hostOps0_1 (StableHlo.after Gen.hostOps0 (Gen.W0 m ρ c))) (Proc.devRef .tc main_arg4) = _
  after_results
theorem W3_arg5 : Gen.W3 m ρ c (Proc.devRef .tc main_arg5) = m ((c : Thread nD τ).loc main_arg5) := by
  show StableHlo.after Gen.hostOps0_2 (StableHlo.after Gen.hostOps0_1 (StableHlo.after Gen.hostOps0 (Gen.W0 m ρ c))) (Proc.devRef .tc main_arg5) = _
  after_results
theorem W3_arg6 : Gen.W3 m ρ c (Proc.devRef .tc main_arg6) = m ((c : Thread nD τ).loc main_arg6) := by
  show StableHlo.after Gen.hostOps0_2 (StableHlo.after Gen.hostOps0_1 (StableHlo.after Gen.hostOps0 (Gen.W0 m ρ c))) (Proc.devRef .tc main_arg6) = _
  after_results
theorem W3_arg7 : Gen.W3 m ρ c (Proc.devRef .tc main_arg7) = m ((c : Thread nD τ).loc main_arg7) := by
  show StableHlo.after Gen.hostOps0_2 (StableHlo.after Gen.hostOps0_1 (StableHlo.after Gen.hostOps0 (Gen.W0 m ρ c))) (Proc.devRef .tc main_arg7) = _
  after_results

/-- After the first stretch: the degree test, the reciprocals, and the zero the guard falls back to. -/
theorem W1_v5 : Gen.W1 m ρ c (Proc.devRef .tc main_v5)
    = cmpf .ogt (deg (m ((c : Thread nD τ).loc main_arg3)))
        (broadcastInDim S100000 ![] Gen.bcast_S_S100000 (constant (F := Ideal) S_ .f32 0x00000000#32)) := by
  show StableHlo.after Gen.hostOps0 (Gen.W0 m ρ c) (Proc.devRef .tc main_v5) = _
  after_results
  rfl
theorem W1_v7 : Gen.W1 m ρ c (Proc.devRef .tc main_v7)
    = Host.divf (F := Ideal) (broadcastInDim S100000 ![] Gen.bcast_S_S100000 (constant (F := Ideal) S_ .f32 0x3F800000#32))
        (deg (m ((c : Thread nD τ).loc main_arg3))) := by
  show StableHlo.after Gen.hostOps0 (Gen.W0 m ρ c) (Proc.devRef .tc main_v7) = _
  after_results
  rfl
theorem W1_cst3 : Gen.W1 m ρ c (Proc.devRef .tc main_cst_3) = constant (F := Ideal) S_ .f32 0x00000000#32 := by
  show StableHlo.after Gen.hostOps0 (Gen.W0 m ρ c) (Proc.devRef .tc main_cst_3) = _
  after_results

/-- The guard, from any contents: the reciprocals where the test holds, the splat of the fallback elsewhere. -/
theorem where_guard (V1 : Valuation τ sig (Elt Ideal)) :
    StableHlo.after (Gen.hostOps0_1 (F := Ideal)) V1 (Proc.devRef .tc main_v8)
      = select (V1 (Proc.devRef .tc main_v5) : IVec S100000 1) (V1 (Proc.devRef .tc main_v7) : S100000.Idx → EReal)
          (broadcastInDim S100000 ![] Gen.bcast_S_S100000 (V1 (Proc.devRef .tc main_cst_3) : S_.Idx → EReal)) := by
  after_results
  rfl

/-- Before the reshape: the scales of the nodes are the guarded reciprocals of the out-degrees of the source words. -/
theorem W2_v8 : Gen.W2 m ρ c (Proc.devRef .tc main_v8) = recip (m ((c : Thread nD τ).loc main_arg3)) := by
  show StableHlo.after Gen.hostOps0_1 (Gen.W1 m ρ c) (Proc.devRef .tc main_v8) = _
  rw [where_guard (Gen.W1 m ρ c), W1_v5, W1_v7, W1_cst3]
  rfl

/-- The reshape, from any contents: the vector of scales as a column. -/
theorem reshape_column (V2 : Valuation τ sig (Elt Ideal)) :
    StableHlo.after (Gen.hostOps0_2 (F := Ideal)) V2 (Proc.devRef .tc main_v9)
      = shapeCast S100000x1 (V2 (Proc.devRef .tc main_v8) : S100000.Idx → EReal) Gen.shapeCasts_S100000_S100000x1 := by
  after_results
  rfl

/-- The column of scales the first region finds is the guarded reciprocal of the out-degree of the source words. -/
theorem W3_v9 : Gen.W3 m ρ c (Proc.devRef .tc main_v9) = invDeg (m ((c : Thread nD τ).loc main_arg3)) := by
  show StableHlo.after Gen.hostOps0_2 (Gen.W2 m ρ c) (Proc.devRef .tc main_v9) = _
  rw [reshape_column (Gen.W2 m ρ c), W2_v8]
  rfl

/-- The first region's result, at its exit: the scaled pooled features of the arguments. -/
theorem W4_v10 : Gen.W4 m ρ c (Proc.devRef .tc main_v10)
    = Pool.scaledPool (m ((c : Thread nD τ).loc main_arg0)) (m ((c : Thread nD τ).loc main_arg4))
        (m ((c : Thread nD τ).loc main_arg5)) (invDeg (m ((c : Thread nD τ).loc main_arg3))) := by
  refine (Gen.W4_arr m ρ c 4).trans ((Pool.final (Gen.V3 m ρ) c).trans ?_)
  show Pool.scaledPool (Gen.W3 m ρ c (Proc.devRef .tc main_arg0)) (Gen.W3 m ρ c (Proc.devRef .tc main_arg4))
    (Gen.W3 m ρ c (Proc.devRef .tc main_arg5)) (Gen.W3 m ρ c (Proc.devRef .tc main_v9)) = _
  rw [W3_arg0, W3_arg4, W3_arg5, W3_v9]

/-- The first region writes none of the arguments it does not stage. -/
theorem W4_arg1 : Gen.W4 m ρ c (Proc.devRef .tc main_arg1) = m ((c : Thread nD τ).loc main_arg1) :=
  (Gen.W4_of_ne m ρ c main_arg1 (by decide)).trans (W3_arg1 m ρ c)
theorem W4_arg2 : Gen.W4 m ρ c (Proc.devRef .tc main_arg2) = m ((c : Thread nD τ).loc main_arg2) :=
  (Gen.W4_of_ne m ρ c main_arg2 (by decide)).trans (W3_arg2 m ρ c)
theorem W4_arg3 : Gen.W4 m ρ c (Proc.devRef .tc main_arg3) = m ((c : Thread nD τ).loc main_arg3) :=
  (Gen.W4_of_ne m ρ c main_arg3 (by decide)).trans (W3_arg3 m ρ c)
theorem W4_arg6 : Gen.W4 m ρ c (Proc.devRef .tc main_arg6) = m ((c : Thread nD τ).loc main_arg6) :=
  (Gen.W4_of_ne m ρ c main_arg6 (by decide)).trans (W3_arg6 m ρ c)
theorem W4_arg7 : Gen.W4 m ρ c (Proc.devRef .tc main_arg7) = m ((c : Thread nD τ).loc main_arg7) :=
  (Gen.W4_of_ne m ρ c main_arg7 (by decide)).trans (W3_arg7 m ρ c)

/-- What the second region finds. -/
theorem W5_arg1 : Gen.W5 m ρ c (Proc.devRef .tc main_arg1) = m ((c : Thread nD τ).loc main_arg1) := by
  show StableHlo.after Gen.hostOps1 (Gen.W4 m ρ c) (Proc.devRef .tc main_arg1) = _
  after_results
  exact W4_arg1 m ρ c
theorem W5_arg7 : Gen.W5 m ρ c (Proc.devRef .tc main_arg7) = m ((c : Thread nD τ).loc main_arg7) := by
  show StableHlo.after Gen.hostOps1 (Gen.W4 m ρ c) (Proc.devRef .tc main_arg7) = _
  after_results
  exact W4_arg7 m ρ c
theorem W5_v21 : Gen.W5 m ρ c (Proc.devRef .tc main_v21)
    = agg (m ((c : Thread nD τ).loc main_arg0)) (m ((c : Thread nD τ).loc main_arg2)) (m ((c : Thread nD τ).loc main_arg3))
        (m ((c : Thread nD τ).loc main_arg4)) (m ((c : Thread nD τ).loc main_arg5)) := by
  show StableHlo.after Gen.hostOps1 (Gen.W4 m ρ c) (Proc.devRef .tc main_v21) = _
  after_results
  rw [W4_arg2, W4_arg3, W4_v10]
  rfl
theorem W5_v22 : Gen.W5 m ρ c (Proc.devRef .tc main_v22)
    = extractStridedSlice S128x128 ![0, 0] (m ((c : Thread nD τ).loc main_arg6)) Gen.slices_S192x128_S128x128_0_0 := by
  show StableHlo.after Gen.hostOps1 (Gen.W4 m ρ c) (Proc.devRef .tc main_v22) = _
  after_results
  rw [W4_arg6]
theorem W5_v23 : Gen.W5 m ρ c (Proc.devRef .tc main_v23)
    = extractStridedSlice S64x128 ![128, 0] (m ((c : Thread nD τ).loc main_arg6)) Gen.slices_S192x128_S64x128_128_0 := by
  show StableHlo.after Gen.hostOps1 (Gen.W4 m ρ c) (Proc.devRef .tc main_v23) = _
  after_results
  rw [W4_arg6]

/-- THE RESULT: the last boundary's contents at the result buffer are the closed form of the launch arguments. -/
theorem W6_result : Gen.W6 m ρ c (Proc.devRef .tc main_v24)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (Gen.W6_arr m ρ c 5).trans ((Neigh.final (Gen.V5 m ρ) c).trans ?_)
  show Neigh.affineOut (Gen.W5 m ρ c (Proc.devRef .tc main_arg1)) (Gen.W5 m ρ c (Proc.devRef .tc main_v21))
    (Gen.W5 m ρ c (Proc.devRef .tc main_v22)) (Gen.W5 m ρ c (Proc.devRef .tc main_v23)) (Gen.W5 m ρ c (Proc.devRef .tc main_arg7)) = _
  rw [W5_arg1, W5_v21, W5_v22, W5_v23, W5_arg7]
  rfl

end Cert.KernelIdeal.Closed

end
-- ==== Proof.EdgeNorm.lean ====
/-
  Normalising a message by its source's out-degree, two ways.

  A node's out-degree is a sum of ones over the edges that land on it, so a node that some edge lands on has degree at
  least one. The reference divides each edge's message by the degree of the edge's source; the kernel instead scales
  every node's features once by "the reciprocal of the degree if the degree is positive, else zero". On extended
  reals a quotient by a non-zero `c` is the product with `c⁻¹`, and `1 · c⁻¹ = c⁻¹`, so where the degree is positive
  the two agree — for every value of the features, finite or not. (At degree zero they differ: the quotient by zero is
  an infinity or the junk value, the guarded scale is zero; an edge whose source word is in range never meets that
  case, because the edge itself counts towards its source's degree.)
-/
import Idealize.ShloMosaic.PureOps.Ideal
import Idealize.ShloMosaic.PureOps.Ideal.Laws
import Idealize.ShloMosaic.Lib.IdealHost
import Idealize.ShloMosaic.Lib.ValueIdx

noncomputable section

namespace Cert.EdgeNorm

open Idealize.ShloMosaic

/-- Where the degree `c` is positive, the product with the guarded reciprocal — the one-pattern over `c` where
    `c` exceeds the zero pattern, else the zero pattern — is the quotient by `c`. -/
theorem guarded_scale (x c : EReal) (hc : 0 < c) :
    x * Scalar.select (Ideal.cmp .ogt c (Ideal.ofBits .f32 0x00000000#32))
          (Ideal.div (Ideal.ofBits .f32 0x3F800000#32) c) (Ideal.ofBits .f32 0x00000000#32)
      = Ideal.div x c := by
  rw [Ideal.ofBits_zero_f32, Ideal.ofBits_one_f32]
  have h1 : Ideal.cmp .ogt c 0 = 1#1 := by
    unfold Ideal.cmp
    simp [hc]
  rw [h1, ValueIdx.select_one]
  unfold Ideal.div
  rw [if_neg (ne_of_gt hc), if_neg (ne_of_gt hc), one_mul]

/-- A scatter-sum of ones from zero is positive at every element some update lands on. -/
theorem degree_pos {s si su : Shape} (d : ScatterDims s si su) {w : Nat} (idx : IVec si w) (i : s.Idx) (j₀ : su.Idx)
    (h : d.resultIdx? j₀ idx = some i) :
    0 < Ideal.hostScatterAdd d (fun _ => Ideal.ofBits .f32 0x00000000#32) idx (fun _ => Ideal.ofBits .f32 0x3F800000#32) i := by
  unfold Ideal.hostScatterAdd
  rw [Ideal.ofBits_zero_f32, Ideal.ofBits_one_f32, zero_add]
  refine lt_of_lt_of_le zero_lt_one ?_
  exact Finset.single_le_sum (f := fun _ : su.Idx => (1 : EReal)) (fun _ _ => zero_le_one)
    (Finset.mem_filter.mpr ⟨Finset.mem_univ j₀, h⟩)

/-- The same for the host's accumulating scatter at the ideal values, the operand and the updates given as functions
    that are the zero pattern and the one-pattern everywhere. -/
theorem degree_pos_host {s si su : Shape} (d : ScatterDims s si su) {w : Nat} (x : FVec Ideal s .f32) (idx : IVec si w)
    (upd : FVec Ideal su .f32) (hx : ∀ i, x i = Ideal.ofBits .f32 0x00000000#32) (hu : ∀ j, upd j = Ideal.ofBits .f32 0x3F800000#32)
    (i : s.Idx) (j₀ : su.Idx) (h : d.resultIdx? j₀ idx = some i) :
    0 < Host.scatterAdd (F := Ideal) d x idx upd i := by
  have hx' : x = fun _ => Ideal.ofBits .f32 0x00000000#32 := funext hx
  have hu' : upd = fun _ => Ideal.ofBits .f32 0x3F800000#32 := funext hu
  subst hx' hu'
  exact degree_pos d idx i j₀ h

end Cert.EdgeNorm

end
-- ==== Proof.LibEdgeIndex.lean ====
/-
  EDGE INDEXING: which operand element a gather along an edge list reads, and which operand element a scatter along an
  edge list lands on, for the three sets of dimension numbers that "table[edge]" (a row of a table, or an entry of a
  vector, per edge) and "sum per-edge values into nodes" lower to.

  Setting. A graph has N nodes and E edges; an edge list is an integer array of shape [E, 1] whose word at (e, 0) names
  a node. Write k(e) for that word read as a SIGNED integer.

  * Gather of rows. For a table of shape [N, C] and dimension numbers offset_dims = [1], collapsed_slice_dims = [0],
    start_index_map = [0], index_vector_dim = 1, slice_sizes = [1, C] and no batching axes, the result has shape [E, C]
    and its element (e, f) is the table's element (clamp k(e), f), where clamp k = min (max k 0) (N - 1): on the
    collapsed axis 0 the operand coordinate is the start index, clamped so that the slice of size 1 fits, and on axis 1
    the start is 0 and the coordinate is the result's offset coordinate f (`gather_rows_operandIdx`,
    `gather_rows_apply`).
  * Gather of entries. For a vector of shape [N] and dimension numbers offset_dims = [], collapsed_slice_dims = [0],
    start_index_map = [0], index_vector_dim = 1, slice_sizes = [1], the result has shape [E] and its element e is the
    vector's element clamp k(e) (`gather_entries_operandIdx`, `gather_entries_apply`).
  * Scatter into entries. For an operand of shape [N], updates of shape [E] and dimension numbers
    update_window_dims = [], inserted_window_dims = [0], scatter_dims_to_operand_dims = [0], index_vector_dim = 1,
    update e has start k(e) on axis 0 (NOT clamped) and window coordinate 0 (`scatter_entries_start`,
    `scatter_entries_window`); so it lands on operand element k(e) when 0 ≤ k(e) < N
    (`scatter_entries_resultIdx`) and is dropped otherwise (`scatter_entries_resultIdx_none`).

  The natural number (k).toNat is max k 0, so min (k).toNat (N - 1) is the clamp above.

  Every statement is about an ARBITRARY record of dimension numbers whose fields are given by equations; for a record
  written with literal fields each equation holds by `rfl`. The proofs replace the record by the literal one (the
  equations are substituted), evaluate the list lookups of the index functions on it, and identify the start-indices
  index "the result's batch coordinates with component 0 on the index vector's axis" with (e, 0) axis by axis.
-/
import Idealize.ShloMosaic.Lib.ValueIdx

open Idealize.ShloMosaic Idealize.ShloMosaic.ValueIdx

namespace Cert.LibEdgeIndex

/-! ## Scatter into the entries of a vector -/

section ScatterEntries
variable {N E w : Nat}

/-- The start on axis 0 of update `e` is the edge word `idx[e, 0]` read signed (no clamping), and its window
    coordinate there is 0 (axis 0 is an inserted window axis, so no update axis is a window axis of it). -/
theorem scatter_entries_start_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt ∧ d.window (ix1 e) 0 = 0 := by
  obtain ⟨uw, iw, sd, iv, wf⟩ := d
  simp only at h1 h2 h3 h4
  subst h1 h2 h3 h4
  generalize hd : (⟨[], [0], [0], 1, wf⟩ : ScatterDims ⟨1, ![N]⟩ ⟨2, ![E, 1]⟩ ⟨1, ![E]⟩) = d
  -- axis 0 is named by the scatter-dims-to-operand-dims map, at position 0
  have hmem : (0 : Fin 1) ∈ d.scatterDimsToOperandDims := by subst hd; exact List.mem_singleton.mpr rfl
  -- the scatter-indices index read for that component is (e, 0)
  have hsi : d.siIdx (ix1 e) ⟨List.idxOf (0 : Fin 1) d.scatterDimsToOperandDims,
      List.idxOf_lt_length_iff.2 hmem⟩ = ix2 e 0 := by
    subst hd
    funext b; refine Fin.ext ?_
    match b with
    | ⟨0, _⟩ => rfl
    | ⟨1, _⟩ => rfl
  refine ⟨?_, ?_⟩
  · unfold ScatterDims.start
    rw [dif_pos hmem, hsi]
  · -- the operand's kept axes are the axes of [N] outside [0]: none
    unfold ScatterDims.window
    rw [dif_neg]
    subst hd
    show (0 : Fin 1) ∉ (List.finRange 1).filter (· ∉ [0])
    decide

/-- The start on axis 0 of update `e`: the edge word read signed. -/
theorem scatter_entries_start (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.start (ix1 e) idx 0 = (idx (ix2 e 0)).toInt :=
  (scatter_entries_start_window d h1 h2 h3 h4 idx e).1

/-- The window coordinate on axis 0 of update `e`: zero. -/
theorem scatter_entries_window (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E) :
    d.window (ix1 e) 0 = 0 :=
  (scatter_entries_start_window d h1 h2 h3 h4 idx e).2

/-- AN EDGE WORD IN RANGE LANDS ON ITS NODE: when `0 ≤ idx[e, 0] < N` (read signed), update `e` lands on operand
    element `idx[e, 0]`. -/
theorem scatter_entries_resultIdx (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hlo : 0 ≤ (idx (ix2 e 0)).toInt) (hhi : (idx (ix2 e 0)).toInt < N) :
    d.resultIdx? (ix1 e) idx = some (ix1 ⟨(idx (ix2 e 0)).toInt.toNat, by omega⟩) := by
  obtain ⟨hst, hwin⟩ := scatter_entries_start_window d h1 h2 h3 h4 idx e
  -- the landing index is inside the operand on its one axis
  have hcond : ∀ a, 0 ≤ d.start (ix1 e) idx a + d.window (ix1 e) a ∧
      d.start (ix1 e) idx a + d.window (ix1 e) a < (⟨1, ![N]⟩ : Shape).size a := by
    intro a
    obtain rfl : a = 0 := Subsingleton.elim _ _
    rw [hst, hwin]
    show 0 ≤ (idx (ix2 e 0)).toInt + ((0 : Nat) : Int) ∧ (idx (ix2 e 0)).toInt + ((0 : Nat) : Int) < (N : Int)
    omega
  unfold ScatterDims.resultIdx?
  rw [dif_pos hcond]
  congr 1
  funext a
  obtain rfl : a = 0 := Subsingleton.elim _ _
  refine Fin.ext ?_
  show (d.start (ix1 e) idx 0 + d.window (ix1 e) 0).toNat = (idx (ix2 e 0)).toInt.toNat
  rw [hst, hwin]
  simp

/-- AN EDGE WORD OUT OF RANGE IS DROPPED: when `idx[e, 0]` (read signed) is negative or at least `N`, update `e`
    lands nowhere. -/
theorem scatter_entries_resultIdx_none (d : ScatterDims ⟨1, ![N]⟩ ⟨2, ![E, 1]⟩ ⟨1, ![E]⟩)
    (h1 : d.updateWindowDims = []) (h2 : d.insertedWindowDims = [0])
    (h3 : d.scatterDimsToOperandDims = [0]) (h4 : d.indexVectorDim = 1)
    (idx : IVec ⟨2, ![E, 1]⟩ w) (e : Fin E)
    (hout : (idx (ix2 e 0)).toInt < 0 ∨ (N : Int) ≤ (idx (ix2 e 0)).toInt) :
    d.resultIdx? (ix1 e) idx = none := by
  obtain ⟨hst, hwin⟩ := scatter_entries_start_window d h1 h2 h3 h4 idx e
  unfold ScatterDims.resultIdx?
  rw [dif_neg]
  intro h
  have h0 := h 0
  rw [hst, hwin] at h0
  have h0' : 0 ≤ (idx (ix2 e 0)).toInt + ((0 : Nat) : Int) ∧ (idx (ix2 e 0)).toInt + ((0 : Nat) : Int) < (N : Int) := h0
  omega

end ScatterEntries

/-! ## Gather of the rows of a table -/

section GatherRows
variable {N E C w : Nat}

/-- THE ROW GATHER'S OPERAND INDEX: result element `(e, f)` reads the table at row `idx[e, 0]`, read signed and
    clamped into `[0, N − 1]`, and column `f`. -/
theorem gather_rows_operandIdx (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (idx : IVec ⟨2, ![E, 1]⟩ w) (e : Fin E) (f : Fin C) :
    d.operandIdx (ix2 e f) idx = ix2 ⟨min (idx (ix2 e 0)).toInt.toNat (N - 1), by omega⟩ f := by
  obtain ⟨od, cd, ob, sb, sm, iv, ss, wf⟩ := d
  simp only at h1 h2 h3 h4 h5 h6 h7
  subst h1 h2 h3 h4 h5 h6 h7
  generalize hd : (⟨[1], [0], [], [], [0], 1, ![1, C], wf⟩ : GatherDims ⟨2, ![N, C]⟩ ⟨2, ![E, 1]⟩ ⟨2, ![E, C]⟩) = d
  -- axis 0 is named by the start index map, at position 0
  have hmem : (0 : Fin 2) ∈ d.startIndexMap := by subst hd; exact List.mem_singleton.mpr rfl
  -- the start-indices index read for that component is (e, 0)
  have hsi : d.siIdx (ix2 e f) ⟨List.idxOf (0 : Fin 2) d.startIndexMap,
      List.idxOf_lt_length_iff.2 hmem⟩ = ix2 e 0 := by
    subst hd
    funext b; refine Fin.ext ?_
    match b with
    | ⟨0, _⟩ => rfl
    | ⟨1, _⟩ => rfl
  -- there is no batching axis
  have hob : ∀ a : Fin 2, a ∉ d.operandBatchingDims := by subst hd; exact fun _ => List.not_mem_nil
  -- axis 0: the start is the clamped edge word (size N, slice size 1); axis 1 is not in the start index map
  have hst0 : d.start (ix2 e f) idx 0 = min (idx (ix2 e 0)).toInt.toNat (N - 1) := by
    unfold GatherDims.start
    rw [dif_pos hmem, hsi]
    subst hd
    rfl
  have hst1 : d.start (ix2 e f) idx 1 = 0 := by
    unfold GatherDims.start
    rw [dif_neg]
    subst hd
    show (1 : Fin 2) ∉ [(0 : Fin 2)]
    decide
  -- axis 0 is collapsed: no offset; axis 1 is the one kept axis and reads the result's offset axis 1
  have hoff0 : d.offCoord (ix2 e f) 0 = 0 := by
    refine d.offCoord_eq_zero _ _ (fun h => ((d.mem_sKept _).mp h).1 ?_)
    subst hd
    exact List.mem_singleton.mpr rfl
  have hoff1 : d.offCoord (ix2 e f) 1 = f.val := by
    subst hd
    unfold GatherDims.offCoord
    rw [dif_pos]
    · rfl
    · show (1 : Fin 2) ∈ (List.finRange 2).filter (· ∉ [(0 : Fin 2)] ++ [])
      decide
  funext a
  refine Fin.ext ?_
  match a with
  | ⟨0, _⟩ =>
    show d.start (ix2 e f) idx 0 + d.batchCoord (ix2 e f) 0 + d.offCoord (ix2 e f) 0 = _
    rw [d.batchCoord_eq_zero _ _ (hob 0), hoff0, hst0]
    rfl
  | ⟨1, _⟩ =>
    show d.start (ix2 e f) idx 1 + d.batchCoord (ix2 e f) 1 + d.offCoord (ix2 e f) 1 = _
    rw [d.batchCoord_eq_zero _ _ (hob 1), hoff1, hst1]
    simp

/-- THE ROW GATHER READ AT `(e, f)`: the table at the clamped row and column `f`. -/
theorem gather_rows_apply {α : Type} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (f : Fin C) :
    Host.gather d x idx (ix2 e f) = x (ix2 ⟨min (idx (ix2 e 0)).toInt.toNat (N - 1), by omega⟩ f) := by
  unfold Host.gather
  rw [gather_rows_operandIdx hN d h1 h2 h3 h4 h5 h6 h7 idx e f]

end GatherRows

/-! ## Gather of the entries of a vector -/

section GatherEntries
variable {N E w : Nat}

/-- THE ENTRY GATHER'S OPERAND INDEX: result element `e` reads the vector at `idx[e, 0]`, read signed and clamped
    into `[0, N − 1]`. -/
theorem gather_entries_operandIdx (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (idx : IVec ⟨2, ![E, 1]⟩ w) (e : Fin E) :
    d.operandIdx (ix1 e) idx = ix1 ⟨min (idx (ix2 e 0)).toInt.toNat (N - 1), by omega⟩ := by
  obtain ⟨od, cd, ob, sb, sm, iv, ss, wf⟩ := d
  simp only at h1 h2 h3 h4 h5 h6 h7
  subst h1 h2 h3 h4 h5 h6 h7
  generalize hd : (⟨[], [0], [], [], [0], 1, ![1], wf⟩ : GatherDims ⟨1, ![N]⟩ ⟨2, ![E, 1]⟩ ⟨1, ![E]⟩) = d
  -- axis 0 is named by the start index map, at position 0
  have hmem : (0 : Fin 1) ∈ d.startIndexMap := by subst hd; exact List.mem_singleton.mpr rfl
  -- the start-indices index read for that component is (e, 0)
  have hsi : d.siIdx (ix1 e) ⟨List.idxOf (0 : Fin 1) d.startIndexMap,
      List.idxOf_lt_length_iff.2 hmem⟩ = ix2 e 0 := by
    subst hd
    funext b; refine Fin.ext ?_
    match b with
    | ⟨0, _⟩ => rfl
    | ⟨1, _⟩ => rfl
  -- no batching axis; the start is the clamped edge word (size N, slice size 1); axis 0 is collapsed: no offset
  have hob : (0 : Fin 1) ∉ d.operandBatchingDims := by subst hd; exact List.not_mem_nil
  have hst0 : d.start (ix1 e) idx 0 = min (idx (ix2 e 0)).toInt.toNat (N - 1) := by
    unfold GatherDims.start
    rw [dif_pos hmem, hsi]
    subst hd
    rfl
  have hoff0 : d.offCoord (ix1 e) 0 = 0 := by
    refine d.offCoord_eq_zero _ _ (fun h => ((d.mem_sKept _).mp h).1 ?_)
    subst hd
    exact List.mem_singleton.mpr rfl
  funext a
  obtain rfl : a = 0 := Subsingleton.elim _ _
  refine Fin.ext ?_
  show d.start (ix1 e) idx 0 + d.batchCoord (ix1 e) 0 + d.offCoord (ix1 e) 0 = _
  rw [d.batchCoord_eq_zero _ _ hob, hoff0, hst0]
  rfl

/-- THE ENTRY GATHER READ AT `e`: the vector at the clamped edge word. -/
theorem gather_entries_apply {α : Type} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  unfold Host.gather
  rw [gather_entries_operandIdx hN d h1 h2 h3 h4 h5 h6 h7 idx e]

end GatherEntries

end Cert.LibEdgeIndex
-- ==== Proof.EdgeRow.lean ====
/-
  The gathered row and its degree.

  For an edge `e` whose source word lies in `[0, 100000)`: the start index of the row gather is the word itself (it is
  not negative, so it is not moved up by the node count); the out-degree — ones summed along the source words — is
  positive at that node, because edge `e` itself lands there; and the column of scales reads, at a node, the guarded
  reciprocal of the node's degree.
-/
import proofs.«133904_j128849019138_2_alg».proof.Proof.Gen.ReferenceIdeal.Read
import proofs.«133904_j128849019138_2_alg».proof.Proof.KernelValue
import proofs.«133904_j128849019138_2_alg».proof.Proof.EdgeNorm
import proofs.«133904_j128849019138_2_alg».proof.Proof.LibEdgeIndex
import proofs.«133904_j128849019138_2_alg».proof.Proof.LibRowOps
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384
set_option maxHeartbeats 60000

noncomputable section

namespace Cert.Bridge

open Idealize.ShloMosaic Idealize.ShloMosaic.ValueIdx
open Cert.KernelIdeal Cert.KernelIdeal.Closed Cert.ReferenceIdeal.Read

/-! ## Two layout reads -/

/-- A scalar splat reads the scalar everywhere. -/
theorem splat_apply {α : Type} {t : Shape} (h : (⟨0, ![]⟩ : Shape).BroadcastsInDim t ![]) (x : (⟨0, ![]⟩ : Shape).Idx → α)
    (j : t.Idx) : broadcastInDim t ![] h x j = x ix0 :=
  broadcastInDim_apply ![] h x j ix0 (fun a => a.elim0)

/-- A length-`E` vector as an `[E, 1]` column reads, at `(e, u)`, its entry `e`. -/
theorem column_apply {α : Type} {E : ℕ} (h : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      split
      · have := e.isLt; omega
      · rfl)

variable (x0 x1 : FVec Ideal S100000x128 .f32) (x2 x3 : IVec S1600000 32) (x4 : FVec Ideal S128x64 .f32)
  (x5 : FVec Ideal S64 .f32) (x6 : FVec Ideal S192x128 .f32) (x7 : FVec Ideal S128 .f32)

/-! ## The gathered row and its degree -/

/-- A source word that is not negative is its own start index. -/
theorem gatherIdx_apply (e : Fin 1600000) (hlo : 0 ≤ (x3 (ix1 e)).toInt) : gatherIdx x3 (ix2 e 0) = x3 (ix1 e) := by
  unfold gatherIdx
  rw [column_apply]
  have hc : ¬ IntOp.cmpi .slt (x3 (ix1 e)) (0#32) = 1#1 := by
    rw [IntOp.cmpi_slt]
    have : (0#32 : BitVec 32).toInt = 0 := by decide
    omega
  show Scalar.select (IntOp.cmpi .slt (x3 (ix1 e)) (broadcastInDim S1600000 ![] Gen.bcast_S_S1600000 (constantI S_ 32 0#32) (ix1 e))) _ (x3 (ix1 e)) = _
  rw [splat_apply, constantI_apply]
  exact if_neg hc

/-- The out-degree is positive at the source of every edge whose source word is a node index. -/
theorem deg_pos (e : Fin 1600000) (n : Fin 100000) (hlo : 0 ≤ (x3 (ix1 e)).toInt) (hhi : (x3 (ix1 e)).toInt < 100000)
    (hn : n.val = (x3 (ix1 e)).toInt.toNat) : 0 < deg x3 (ix1 n) := by
  have hcol : (broadcastInDim S1600000x1 ![0] Gen.bcast_S1600000_S1600000x1_0 x3) (ix2 e 0) = x3 (ix1 e) :=
    column_apply _ x3 e 0
  have hland := Cert.LibEdgeIndex.scatter_entries_resultIdx (N := 100000) (E := 1600000)
    scatter_S100000_S1600000x1_S1600000_n_0_0_1 rfl rfl rfl rfl
    (broadcastInDim S1600000x1 ![0] Gen.bcast_S1600000_S1600000x1_0 x3) e (by rw [hcol]; exact hlo) (by rw [hcol]; exact_mod_cast hhi)
  have hidx : (ix1 ⟨((broadcastInDim S1600000x1 ![0] Gen.bcast_S1600000_S1600000x1_0 x3) (ix2 e 0)).toInt.toNat,
      by rw [hcol]; omega⟩ : S100000.Idx) = ix1 n := by
    refine congrArg ix1 (Fin.ext ?_)
    show ((broadcastInDim S1600000x1 ![0] Gen.bcast_S1600000_S1600000x1_0 x3) (ix2 e 0)).toInt.toNat = n.val
    rw [hcol, hn]
  unfold deg
  exact Cert.EdgeNorm.degree_pos_host scatter_S100000_S1600000x1_S1600000_n_0_0_1 _ _ _
    (fun i => (splat_apply _ _ i).trans (constant_apply _ _)) (fun j => (splat_apply _ _ j).trans (constant_apply _ _))
    (ix1 n) (ix1 e) (hidx ▸ hland)

/-- A guarded reciprocal read at an index: the reciprocal where the test holds, the fallback elsewhere. -/
theorem guarded_apply {s : Shape} (D Z O : FVec Ideal s .f32) (i : s.Idx) :
    select (cmpf .ogt D Z) (Host.divf (F := Ideal) O D) Z i
      = Scalar.select (Ideal.cmp .ogt (D i) (Z i)) (Ideal.div (O i) (D i)) (Z i) := rfl

set_option maxHeartbeats 20000 in
/-- The column of scales at node `n`: the guarded reciprocal of the node's out-degree. -/
theorem invDeg_apply (n : Fin 100000) :
    invDeg x3 (ix2 n (0 : Fin 1))
      = Scalar.select (Ideal.cmp .ogt (deg x3 (ix1 n)) (Ideal.ofBits .f32 0x00000000#32))
          (Ideal.div (Ideal.ofBits .f32 0x3F800000#32) (deg x3 (ix1 n))) (Ideal.ofBits .f32 0x00000000#32) := by
  unfold invDeg
  rw [Cert.LibRowOps.shapeCast_a_a1_apply]
  unfold recip
  rw [guarded_apply, splat_apply, splat_apply, constant_apply, constant_apply]

end Cert.Bridge

end
-- ==== Proof.Messages.lean ====
/-
  Edge by edge, the kernel's message is the reference's, and so are the sums along the destination words.

  Both programs gather, for edge `e`, row `s(e)` of the pooled features, `s(e)` the source word: in range, it is
  neither moved nor clamped. The reference divides the row by the out-degree at `s(e)`; the kernel's row was scaled by
  the guarded reciprocal of that degree. The degree there is positive, and on extended reals the quotient by a non-zero
  `c` is the product with `c⁻¹`, so the two agree whatever the pooled values are.
-/
import proofs.«133904_j128849019138_2_alg».proof.Proof.Gen.ReferenceIdeal.Read
import proofs.«133904_j128849019138_2_alg».proof.Proof.KernelValue
import proofs.«133904_j128849019138_2_alg».proof.Proof.EdgeNorm
import proofs.«133904_j128849019138_2_alg».proof.Proof.LibEdgeIndex
import proofs.«133904_j128849019138_2_alg».proof.Proof.LibRowOps
import proofs.«133904_j128849019138_2_alg».proof.Proof.EdgeRow
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384
set_option maxHeartbeats 60000

noncomputable section

namespace Cert.Bridge

open Idealize.ShloMosaic Idealize.ShloMosaic.ValueIdx
open Cert.KernelIdeal Cert.KernelIdeal.Closed Cert.ReferenceIdeal.Read

variable (x0 x1 : FVec Ideal S100000x128 .f32) (x2 x3 : IVec S1600000 32) (x4 : FVec Ideal S128x64 .f32)
  (x5 : FVec Ideal S64 .f32) (x6 : FVec Ideal S192x128 .f32) (x7 : FVec Ideal S128 .f32)

/-! ## The messages and their sums -/

/-- The pooled features the reference gathers, at row `n`, lane `f`. -/
theorem pooled_apply (n : Fin 100000) (f : Fin 64) :
    val_main_v4 (F := Ideal) x0 x4 x5 (ix2 n f)
      = max ((∑ k : Fin 128, x0 (ix2 n k) * x4 (ix2 k f)) + x5 (ix1 f)) (Ideal.ofBits .f32 0x00000000#32) := by
  rw [val_main_v4_apply, val_main_v3_apply, val_main_v0_apply, val_main_v2_apply, val_main_v1_apply, val_main_call0_v0_apply,
    val_main_call0_cst_apply]
  have el : ∀ k : Fin 128, lidx_main_v0 (ix2 n f) k = ix2 n k := fun k => funext fun a => by
    match a with
    | ⟨0, _⟩ => rfl
    | ⟨1, _⟩ => rfl
  have er : ∀ k : Fin 128, ridx_main_v0 (ix2 n f) k = ix2 k f := fun k => funext fun a => by
    match a with
    | ⟨0, _⟩ => rfl
    | ⟨1, _⟩ => rfl
  have eb : idx_main_v1 (idx_main_v2 (ix2 n f)) = ix1 f := funext fun a => by
    match a with
    | ⟨0, _⟩ => rfl
  simp only [el, er, eb, Ideal.maximumf_def, Ideal.addf_def, Ideal.ofBits_def]

/-- The reference computes the same start indices and the same out-degrees as the kernel. -/
theorem startIdx_ref : val_main_v14 (F := Ideal) x3 = gatherIdx x3 := rfl
theorem startIdx_ref' : val_main_v21 (F := Ideal) x3 = gatherIdx x3 := rfl
theorem deg_ref : val_main_v8 (F := Ideal) x3 = deg x3 := rfl

/-- Edge by edge and lane by lane, the kernel's message is the reference's. -/
theorem msgs_eq (hsrc : ∀ e : S1600000.Idx, 0 ≤ (x3 e).toInt ∧ (x3 e).toInt < 100000) :
    msgs x0 x3 x4 x5 = val_main_v25 (F := Ideal) x0 x3 x4 x5 := by
  funext i
  obtain ⟨e, f, rfl⟩ : ∃ (e : Fin 1600000) (f : Fin 64), i = ix2 e f := ⟨i 0, i 1, eq_ix2 i⟩
  obtain ⟨hlo, hhi⟩ := hsrc (ix1 e)
  have hg : gatherIdx x3 (ix2 e 0) = x3 (ix1 e) := gatherIdx_apply x3 e hlo
  -- the node the edge's start index names
  have hnlt : (x3 (ix1 e)).toInt.toNat < 100000 := by omega
  have hrow : ∀ (idx : IVec S1600000x1 32), idx (ix2 e 0) = x3 (ix1 e) → ∀ pf,
      (⟨min (idx (ix2 e 0)).toInt.toNat (100000 - 1), pf⟩ : Fin 100000) = ⟨(x3 (ix1 e)).toInt.toNat, hnlt⟩ :=
    fun idx h pf => Fin.ext (by
      show min (idx (ix2 e 0)).toInt.toNat (100000 - 1) = (x3 (ix1 e)).toInt.toNat
      rw [h]; omega)
  have hpos : 0 < deg x3 (ix1 ⟨(x3 (ix1 e)).toInt.toNat, hnlt⟩) := deg_pos x3 e _ hlo hhi rfl
  -- the kernel's side: the scaled pooled row
  have hK : msgs x0 x3 x4 x5 (ix2 e f)
      = max ((∑ k : Fin 128, x0 (ix2 ⟨(x3 (ix1 e)).toInt.toNat, hnlt⟩ k) * x4 (ix2 k f)) + x5 (ix1 f)) (Ideal.ofBits .f32 0x00000000#32)
        * invDeg x3 (ix2 ⟨(x3 (ix1 e)).toInt.toNat, hnlt⟩ (0 : Fin 1)) := by
    unfold msgs
    rw [extf_apply, Cert.LibEdgeIndex.gather_rows_apply (N := 100000) (E := 1600000) (C := 64) (by decide)
      gather_S100000x64_S1600000x1_S1600000x64_1_0_n_n_0_1_164 rfl rfl rfl rfl rfl rfl rfl, hrow _ hg]
    rfl
  -- the reference's side: the pooled row over the degree
  have hg' : val_main_v14 (F := Ideal) x3 (ix2 e 0) = x3 (ix1 e) := by rw [startIdx_ref]; exact hg
  have hg'' : val_main_v21 (F := Ideal) x3 (ix2 e 0) = x3 (ix1 e) := by rw [startIdx_ref']; exact hg
  have hR1 : val_main_v15 (F := Ideal) x0 x3 x4 x5 (ix2 e f) = val_main_v4 (F := Ideal) x0 x4 x5 (ix2 ⟨(x3 (ix1 e)).toInt.toNat, hnlt⟩ f) := by
    unfold val_main_v15
    rw [Cert.LibEdgeIndex.gather_rows_apply (N := 100000) (E := 1600000) (C := 64) (by decide)
      Cert.ReferenceIdeal.gather_S100000x64_S1600000x1_S1600000x64_1_0_n_n_0_1_164 rfl rfl rfl rfl rfl rfl rfl, hrow _ hg']
  have hR2 : val_main_v24 (F := Ideal) x3 (ix2 e f) = deg x3 (ix1 ⟨(x3 (ix1 e)).toInt.toNat, hnlt⟩) := by
    rw [val_main_v24_apply, val_main_v23_apply]
    have ei : idx_main_v23 (idx_main_v24 (ix2 e f)) = ix1 e := funext fun a => by
      match a with
      | ⟨0, _⟩ => rfl
    rw [ei]
    unfold val_main_v22
    rw [Cert.LibEdgeIndex.gather_entries_apply (N := 100000) (E := 1600000) (by decide)
      Cert.ReferenceIdeal.gather_S100000_S1600000x1_S1600000_n_0_n_n_0_1_1 rfl rfl rfl rfl rfl rfl rfl, hrow _ hg'', deg_ref]
  rw [hK, val_main_v25_apply, hR1, hR2, pooled_apply, invDeg_apply, Ideal.hostDivf_def]
  exact Cert.EdgeNorm.guarded_scale _ _ hpos

/-- The aggregated messages agree. -/
theorem agg_eq (hsrc : ∀ e : S1600000.Idx, 0 ≤ (x3 e).toInt ∧ (x3 e).toInt < 100000) :
    agg x0 x2 x3 x4 x5 = val_main_v28 (F := Ideal) x0 x2 x3 x4 x5 := by
  unfold agg val_main_v28
  rw [msgs_eq x0 x3 x4 x5 hsrc]
  rfl

end Cert.Bridge

end
-- ==== Proof.Bridge.lean ====
/-
  The reference's result and the kernel's closed form are one function of the arguments, when every source word is a
  node index.

  The reference multiplies the concatenation `[y | a]` by the whole output matrix, a sum over 192 terms, where the
  kernel adds the product of `y` with the matrix's first 128 rows to the product of `a` with its last 64: the sum over
  `Fin (128 + 64)` split in two. The aggregated messages `a` agree by the edge-by-edge comparison. Finiteness is not
  used.
-/
import proofs.«133904_j128849019138_2_alg».proof.Proof.Gen.ReferenceIdeal.Read
import proofs.«133904_j128849019138_2_alg».proof.Proof.KernelValue
import proofs.«133904_j128849019138_2_alg».proof.Proof.EdgeNorm
import proofs.«133904_j128849019138_2_alg».proof.Proof.LibEdgeIndex
import proofs.«133904_j128849019138_2_alg».proof.Proof.LibRowOps
import proofs.«133904_j128849019138_2_alg».proof.Proof.Messages
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384
set_option maxHeartbeats 60000

noncomputable section

namespace Cert.Bridge

open Idealize.ShloMosaic Idealize.ShloMosaic.ValueIdx
open Cert.KernelIdeal Cert.KernelIdeal.Closed Cert.ReferenceIdeal.Read

variable (x0 x1 : FVec Ideal S100000x128 .f32) (x2 x3 : IVec S1600000 32) (x4 : FVec Ideal S128x64 .f32)
  (x5 : FVec Ideal S64 .f32) (x6 : FVec Ideal S192x128 .f32) (x7 : FVec Ideal S128 .f32)

/-! ## The output -/

/-- THE TWO RESULTS ARE ONE FUNCTION of the arguments, when every source word is a node index. -/
theorem out_eq (hsrc : ∀ e : S1600000.Idx, 0 ≤ (x3 e).toInt ∧ (x3 e).toInt < 100000) :
    val_main_v33 (F := Ideal) x0 x1 x2 x3 x4 x5 x6 x7 = out x0 x1 x2 x3 x4 x5 x6 x7 := by
  funext i
  obtain ⟨r, j, rfl⟩ : ∃ (r : Fin 100000) (j : Fin 128), i = ix2 r j := ⟨i 0, i 1, eq_ix2 i⟩
  rw [val_main_v33_apply, val_main_v30_apply, val_main_v32_apply, val_main_v31_apply]
  -- the bias
  have hC : idx_main_v31 (idx_main_v32 (ix2 r j)) = ix1 j := funext fun a => by
    match a with
    | ⟨0, _⟩ => rfl
  -- the first 128 terms: the destination features against the first row part
  have hA : ∀ a : Fin 128, val_main_v29 (F := Ideal) x0 x1 x2 x3 x4 x5 (lidx_main_v30 (ix2 r j) ⟨a.val, by omega⟩)
        * x6 (ridx_main_v30 (ix2 r j) ⟨a.val, by omega⟩)
      = x1 (ix2 r a) * extractStridedSlice S128x128 ![0, 0] x6 Gen.slices_S192x128_S128x128_0_0 (ix2 a j) := by
    intro a
    have h1 : val_main_v29 (F := Ideal) x0 x1 x2 x3 x4 x5 (lidx_main_v30 (ix2 r j) ⟨a.val, by omega⟩) = x1 (ix2 r a) := by
      unfold val_main_v29
      exact concatenate_pair_apply_left (t := Cert.ReferenceIdeal.S100000x192) (s₁ := S100000x128) (s₂ := S100000x64) (1 : Fin 2) x1 _ _
        (lidx_main_v30 (ix2 r j) ⟨a.val, by omega⟩) rfl (ix2 r a) (fun b => by
        match b with
        | ⟨0, _⟩ => rfl
        | ⟨1, _⟩ => rfl)
    have h2 : extractStridedSlice S128x128 ![0, 0] x6 Gen.slices_S192x128_S128x128_0_0 (ix2 a j)
        = x6 (ridx_main_v30 (ix2 r j) ⟨a.val, by omega⟩) := by
      refine (slice2_axis0_apply 0 x6 Gen.slices_S192x128_S128x128_0_0 a j ⟨a.val, by omega⟩ (by simp)).trans ?_
      refine congrArg x6 (funext fun b => ?_)
      match b with
      | ⟨0, _⟩ => rfl
      | ⟨1, _⟩ => rfl
    rw [h1, h2]
  -- the last 64 terms: the aggregated messages against the second row part
  have hB : ∀ a : Fin 64, val_main_v29 (F := Ideal) x0 x1 x2 x3 x4 x5 (lidx_main_v30 (ix2 r j) ⟨128 + a.val, by omega⟩)
        * x6 (ridx_main_v30 (ix2 r j) ⟨128 + a.val, by omega⟩)
      = agg x0 x2 x3 x4 x5 (ix2 r a) * extractStridedSlice S64x128 ![128, 0] x6 Gen.slices_S192x128_S64x128_128_0 (ix2 a j) := by
    intro a
    have h1 : val_main_v29 (F := Ideal) x0 x1 x2 x3 x4 x5 (lidx_main_v30 (ix2 r j) ⟨128 + a.val, by omega⟩)
        = agg x0 x2 x3 x4 x5 (ix2 r a) := by
      rw [agg_eq x0 x2 x3 x4 x5 hsrc]
      unfold val_main_v29
      exact concatenate_pair_apply_right (t := Cert.ReferenceIdeal.S100000x192) (s₁ := S100000x128) (s₂ := S100000x64) (1 : Fin 2) x1 _ _
        (lidx_main_v30 (ix2 r j) ⟨128 + a.val, by omega⟩) rfl rfl (ix2 r a) (fun b hb => by
        match b with
        | ⟨0, _⟩ => rfl
        | ⟨1, _⟩ => exact absurd rfl hb) (by show a.val + 128 = 128 + a.val; omega)
    have h2 : extractStridedSlice S64x128 ![128, 0] x6 Gen.slices_S192x128_S64x128_128_0 (ix2 a j)
        = x6 (ridx_main_v30 (ix2 r j) ⟨128 + a.val, by omega⟩) := by
      refine (slice2_axis0_apply 128 x6 Gen.slices_S192x128_S64x128_128_0 a j ⟨128 + a.val, by omega⟩ rfl).trans ?_
      refine congrArg x6 (funext fun b => ?_)
      match b with
      | ⟨0, _⟩ => rfl
      | ⟨1, _⟩ => rfl
    rw [h1, h2]
  rw [hC, Cert.LibRowOps.sum_fin_split 128 64, Finset.sum_congr rfl (fun a _ => hA a), Finset.sum_congr rfl (fun a _ => hB a)]
  rfl

end Cert.Bridge

end
-- ==== Proof.PreRange.lean ====
/-
  The index range read out of the precondition. The printed precondition is one i1 scalar: the conjunction
  (and on i1 words) of six "every entry is finite" tests on the float arguments and two tests on the fourth argument,
  the edge list's source words: all(src ≥ 0) and all(src < 100000), each an elementwise signed comparison with a splat
  literal reduced by and over the one axis. A conjunction of i1 words is 1 exactly when both words are; a reduction by
  and into a one-index result is 1 only if every element is; and a signed comparison word is 1 exactly when the signed
  readings compare so. Hence, when the precondition is 1, every source word read signed lies in [0, 100000).
  Only the two outermost conjuncts are opened; the float tests are never looked at, so the statement holds for every
  float instance.
-/
import proofs.«133904_j128849019138_2_alg».proof.Pre_finite_inputs
import Idealize.ShloMosaic.Lib.ReduceAll
import Idealize.ShloMosaic.Lib.ValueIdx
import Idealize.ShloMosaic.PureOps.Ideal

noncomputable section

namespace Cert.PreRange

open Idealize.ShloMosaic
open Cert.Pre_finite_inputs

variable [Cert.Pre_finite_inputs.Facts]

/-- The scalar shape has one index. -/
instance : Subsingleton S_.Idx := ⟨fun a b => funext fun d => d.elim0⟩

/-- The literal 0 reads 0 signed; the literal 100000 reads 100000 signed. -/
theorem toInt_zero : (0#32 : BitVec 32).toInt = 0 := by decide
theorem toInt_bound : (100000#32 : BitVec 32).toInt = 100000 := by decide

/-- The precondition, when it is 1, puts every source word, read signed, in [0, 100000). -/
theorem src_in_range {F : FTy → Type} [FloatOps F]
    (a0 a1 : FVec F S100000x128 .f32) (a2 a3 : IVec S1600000 32) (a4 : FVec F S128x64 .f32) (a5 : FVec F S64 .f32)
    (a6 : FVec F S192x128 .f32) (a7 : FVec F S128 .f32)
    (h : Cert.Pre_finite_inputs.fn (F := F) a0 a1 a2 a3 a4 a5 a6 a7 = fun _ => 1#1) :
    ∀ e : S1600000.Idx, 0 ≤ (a3 e).toInt ∧ (a3 e).toInt < 100000 := by
  intro e
  have h0 := congrFun h ValueIdx.ix0
  dsimp only [fn, fn_part1, fn_part2] at h0
  -- the two outermost conjunctions, at the scalar's one index
  obtain ⟨h1, hlt⟩ := IntOp.andi_eq_one.1 (show IntOp.andi _ _ = 1#1 from h0)
  obtain ⟨-, hge⟩ := IntOp.andi_eq_one.1 (show IntOp.andi _ _ = 1#1 from h1)
  -- each all(...) gives its comparison word at e
  have hge' : IntOp.cmpi .sge (a3 e) (0#32) = 1#1 := Host.reduce_andi_all _ _ _ _ _ hge e
  have hlt' : IntOp.cmpi .slt (a3 e) (100000#32) = 1#1 := Host.reduce_andi_all _ _ _ _ _ hlt e
  -- the comparison words read back, signed
  rw [IntOp.cmpi_sge, toInt_zero] at hge'
  rw [IntOp.cmpi_slt, toInt_bound] at hlt'
  exact ⟨hge', hlt'⟩

end Cert.PreRange

end
-- ==== Proof.lean ====
/-
  The certificate of a graph layer: a Pallas kernel in two pipelined regions, with the edge gather and the two
  segment sums on the host between them, against its jnp reference, on extended reals.

  Both programs compute, for node features `h` and `y`, an edge list `(src, dst)`, a pooling layer `(W, b)` and an
  output layer `(Wn, bn)`:  `out = [y | a]·Wn + bn`,  where `a(i) = Σ_{e : dst(e) = i} relu(h·W + b)(src(e)) / deg(src(e))`
  and `deg(j)` counts the edges with source `j`. The reference divides per edge; the kernel scales every node's
  pooled row once by the reciprocal of its degree where that is positive (zero elsewhere), and multiplies `y` and `a`
  by the two row parts of `Wn` separately. Under the precondition — every float input finite and every source word
  a node index in `[0, 100000)` — an edge's source has degree at least one, the two normalisations agree, and a sum
  over 192 terms is the sum of its first 128 and its last 64; finiteness is not used.

  The frames are the generated ones (the reference's is its generated run with the result dropped); no operation was
  rewritten by the idealization, so `preserves` is trivial; the kernel's value is read off its run boundary by
  boundary (KernelRun, Pool, Neigh, KernelValue), the reference's off its generated run and stages, and Bridge joins
  the two. PreRange reads the index range out of the precondition.
-/
import proofs.«133904_j128849019138_2_alg».proof.Defs
import proofs.«133904_j128849019138_2_alg».proof.Proof.Gen.Kernel
import proofs.«133904_j128849019138_2_alg».proof.Proof.Gen.Kernel.Skeleton
import proofs.«133904_j128849019138_2_alg».proof.Proof.Gen.Kernel.Launch
import proofs.«133904_j128849019138_2_alg».proof.Proof.Gen.Kernel.Points
import proofs.«133904_j128849019138_2_alg».proof.Proof.Gen.Kernel.Frame
import proofs.«133904_j128849019138_2_alg».proof.Proof.Gen.KernelIdeal
import proofs.«133904_j128849019138_2_alg».proof.Proof.Gen.KernelIdeal.Skeleton
import proofs.«133904_j128849019138_2_alg».proof.Proof.Gen.KernelIdeal.Launch
import proofs.«133904_j128849019138_2_alg».proof.Proof.Gen.KernelIdeal.Points
import proofs.«133904_j128849019138_2_alg».proof.Proof.Gen.KernelIdeal.Frame
import proofs.«133904_j128849019138_2_alg».proof.Proof.Gen.ReferenceIdeal
import proofs.«133904_j128849019138_2_alg».proof.Proof.Gen.Pre_finite_inputs
import proofs.«133904_j128849019138_2_alg».proof.Proof.Gen.ReferenceIdeal.Run
import proofs.«133904_j128849019138_2_alg».proof.Proof.Gen.ReferenceIdeal.Read
import proofs.«133904_j128849019138_2_alg».proof.Proof.KernelRun
import proofs.«133904_j128849019138_2_alg».proof.Proof.KernelValue
import proofs.«133904_j128849019138_2_alg».proof.Proof.Bridge
import proofs.«133904_j128849019138_2_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every source word a node index, both programs end with the closed
    form of the arguments in their result buffers: the kernel by reading its run, the reference by its generated run
    and the bridge. -/
theorem algebraic : Cert.algebraic_KernelIdeal_ReferenceIdeal := by
  intro m ρ m' ρ' hpre hagree
  refine ⟨fun c => Cert.KernelIdeal.Closed.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Closed.W6_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    have hsrc := Cert.PreRange.src_in_range (F := Ideal) _ _ _ _ _ _ _ _ (hpre c)
    obtain ⟨a0, a1, a2, a3, a4, a5, a6, a7⟩ := hagree c
    rw [a0, a1, a2, a3, a4, a5, a6, a7]
    exact (Cert.ReferenceIdeal.Read.val_main_v33_eq _ _ _ _ _ _ _ _).trans
      (Cert.Bridge.out_eq _ _ _ _ _ _ _ _ hsrc)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
